-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x180x768 : Shape := ⟨3, ![32, 180, 768]⟩
abbrev S19004x768 : Shape := ⟨2, ![19004, 768]⟩
abbrev S19004 : Shape := ⟨1, ![19004]⟩
abbrev S_ : Shape := ⟨0, ![]⟩

class Facts : Prop where
  bcast_S_S32x180x768 : S_.BroadcastsInDim S32x180x768 (![] : Fin 0 → Fin S32x180x768.rank)
  reducesTo_S32x180x768_S_d0_1_2 : S32x180x768.ReducesTo [0, 1, 2] S_
  h_S_ : 0 < S_.numel
  bcast_S_S19004x768 : S_.BroadcastsInDim S19004x768 (![] : Fin 0 → Fin S19004x768.rank)
  reducesTo_S19004x768_S_d0_1 : S19004x768.ReducesTo [0, 1] S_
  bcast_S_S19004 : S_.BroadcastsInDim S19004 (![] : Fin 0 → Fin S19004.rank)
  reducesTo_S19004_S_d0 : S19004.ReducesTo [0] S_

variable [Facts]

def fn_part1 {F : FTy → Type} [FloatOps F] (main_arg3 : IVec S19004 32) (main_v13 : IVec S_ 1) (main_v15 : IVec S19004 1) (main_c_5 : IVec S_ 1) : IVec S_ 1 :=
  let main_v16 : IVec S_ 1 := (fun x v => Host.reduce IntOp.andi x v reducesTo_S19004_S_d0 h_S_) main_v15 main_c_5
  let main_v17 : IVec S_ 1 := andi main_v13 main_v16
  let main_c_6 : IVec S_ 32 := constantI S_ 32 180#32
  let main_v18 : IVec S19004 32 := broadcastInDim S19004 ![] bcast_S_S19004 main_c_6
  let main_v19 : IVec S19004 1 := cmpi .slt main_arg3 main_v18
  let main_c_7 : IVec S_ 1 := constantI S_ 1 1#1
  let main_v20 : IVec S_ 1 := (fun x v => Host.reduce IntOp.andi x v reducesTo_S19004_S_d0 h_S_) main_v19 main_c_7
  let main_v21 : IVec S_ 1 := andi main_v17 main_v20
  main_v21

def fn {F : FTy → Type} [FloatOps F] (main_arg0 : FVec F S32x180x768 .f32) (main_arg1 : FVec F S19004x768 .f32) (main_arg2 : FVec F S19004 .f32) (main_arg3 : IVec S19004 32) : IVec S_ 1 :=
  let main_v0 : FVec F S32x180x768 .f32 := Host.absf main_arg0
  let main_cst : FVec F S_ .f32 := constant S_ .f32 0x7F800000#32
  let main_v1 : FVec F S32x180x768 .f32 := broadcastInDim S32x180x768 ![] bcast_S_S32x180x768 main_cst
  let main_v2 : IVec S32x180x768 1 := cmpf .olt main_v0 main_v1
  let main_c : IVec S_ 1 := constantI S_ 1 1#1
  let main_v3 : IVec S_ 1 := (fun x v => Host.reduce IntOp.andi x v reducesTo_S32x180x768_S_d0_1_2 h_S_) main_v2 main_c
  let main_v4 : FVec F S19004x768 .f32 := Host.absf main_arg1
  let main_cst_0 : FVec F S_ .f32 := constant S_ .f32 0x7F800000#32
  let main_v5 : FVec F S19004x768 .f32 := broadcastInDim S19004x768 ![] bcast_S_S19004x768 main_cst_0
  let main_v6 : IVec S19004x768 1 := cmpf .olt main_v4 main_v5
  let main_c_1 : IVec S_ 1 := constantI S_ 1 1#1
  let main_v7 : IVec S_ 1 := (fun x v => Host.reduce IntOp.andi x v reducesTo_S19004x768_S_d0_1 h_S_) main_v6 main_c_1
  let main_v8 : IVec S_ 1 := andi main_v3 main_v7
  let main_v9 : FVec F S19004 .f32 := Host.absf main_arg2
  let main_cst_2 : FVec F S_ .f32 := constant S_ .f32 0x7F800000#32
  let main_v10 : FVec F S19004 .f32 := broadcastInDim S19004 ![] bcast_S_S19004 main_cst_2
  let main_v11 : IVec S19004 1 := cmpf .olt main_v9 main_v10
  let main_c_3 : IVec S_ 1 := constantI S_ 1 1#1
  let main_v12 : IVec S_ 1 := (fun x v => Host.reduce IntOp.andi x v reducesTo_S19004_S_d0 h_S_) main_v11 main_c_3
  let main_v13 : IVec S_ 1 := andi main_v8 main_v12
  let main_c_4 : IVec S_ 32 := constantI S_ 32 0#32
  let main_v14 : IVec S19004 32 := broadcastInDim S19004 ![] bcast_S_S19004 main_c_4
  let main_v15 : IVec S19004 1 := cmpi .sge main_arg3 main_v14
  let main_c_5 : IVec S_ 1 := constantI S_ 1 1#1
  fn_part1 (F := F) main_arg3 main_v13 main_v15 main_c_5
-- ==== Kernel.lean ====
abbrev S32x180x768 : Shape := ⟨3, ![32, 180, 768]⟩
abbrev S19004x768 : Shape := ⟨2, ![19004, 768]⟩
abbrev S19004 : Shape := ⟨1, ![19004]⟩
abbrev S_ : Shape := ⟨0, ![]⟩
abbrev S19456x768 : Shape := ⟨2, ![19456, 768]⟩
abbrev S19456 : Shape := ⟨1, ![19456]⟩
abbrev S1x19456 : Shape := ⟨2, ![1, 19456]⟩
abbrev S32x19456 : Shape := ⟨2, ![32, 19456]⟩
abbrev S512x768 : Shape := ⟨2, ![512, 768]⟩
abbrev S1x512 : Shape := ⟨2, ![1, 512]⟩
abbrev S32x512 : Shape := ⟨2, ![32, 512]⟩
abbrev S512 : Shape := ⟨1, ![512]⟩
abbrev S180x512 : Shape := ⟨2, ![180, 512]⟩
abbrev S1x180x768 : Shape := ⟨3, ![1, 180, 768]⟩
abbrev S180x768 : Shape := ⟨2, ![180, 768]⟩
abbrev S32x19004 : Shape := ⟨2, ![32, 19004]⟩

abbrev nBuf : Space → Nat
  | .hbm => 19
  | .vmem => 9
  | .smem => 0
  | _ => 0

abbrev bufTy : (tb : Table) → Fin (tcTables nBuf tb) → BufTy
  | .hbm, ⟨0, _⟩ => ⟨S32x180x768, .f32⟩
  | .hbm, ⟨1, _⟩ => ⟨S19004x768, .f32⟩
  | .hbm, ⟨2, _⟩ => ⟨S19004, .f32⟩
  | .hbm, ⟨3, _⟩ => ⟨S19004, .i32⟩
  | .hbm, ⟨4, _⟩ => ⟨S32x180x768, .bf16⟩
  | .hbm, ⟨5, _⟩ => ⟨S_, .i32⟩
  | .hbm, ⟨6, _⟩ => ⟨S_, .f32⟩
  | .hbm, ⟨7, _⟩ => ⟨S19456x768, .f32⟩
  | .hbm, ⟨8, _⟩ => ⟨S19456x768, .bf16⟩
  | .hbm, ⟨9, _⟩ => ⟨S_, .i32⟩
  | .hbm, ⟨10, _⟩ => ⟨S_, .f32⟩
  | .hbm, ⟨11, _⟩ => ⟨S19456, .f32⟩
  | .hbm, ⟨12, _⟩ => ⟨S1x19456, .f32⟩
  | .hbm, ⟨13, _⟩ => ⟨S_, .i32⟩
  | .hbm, ⟨14, _⟩ => ⟨S_, .i32⟩
  | .hbm, ⟨15, _⟩ => ⟨S19456, .i32⟩
  | .hbm, ⟨16, _⟩ => ⟨S1x19456, .i32⟩
  | .hbm, ⟨17, _⟩ => ⟨S32x19456, .f32⟩
  | .hbm, ⟨18, _⟩ => ⟨S32x19004, .f32⟩
  | .local _ .vmem, ⟨0, _⟩ => ⟨S32x180x768, .bf16⟩
  | .local _ .vmem, ⟨1, _⟩ => ⟨S512x768, .bf16⟩
  | .local _ .vmem, ⟨2, _⟩ => ⟨S512x768, .bf16⟩
  | .local _ .vmem, ⟨3, _⟩ => ⟨S1x512, .f32⟩
  | .local _ .vmem, ⟨4, _⟩ => ⟨S1x512, .f32⟩
  | .local _ .vmem, ⟨5, _⟩ => ⟨S1x512, .i32⟩
  | .local _ .vmem, ⟨6, _⟩ => ⟨S1x512, .i32⟩
  | .local _ .vmem, ⟨7, _⟩ => ⟨S32x512, .f32⟩
  | .local _ .vmem, ⟨8, _⟩ => ⟨S32x512, .f32⟩
  | _, _ => ⟨S32x180x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![38], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x180x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  pads_S19004x768_S19456x768_04520_000 : S19004x768.Pads (![0, 0] : Fin 2 → Nat) ![452, 0] ![0, 0] S19456x768
  h_S_ : 0 < S_.numel
  pads_S19004_S19456_04520 : S19004.Pads (![0] : Fin 1 → Nat) ![452] ![0] S19456
  shapeCasts_S19456_S1x19456 : S19456.ShapeCasts S1x19456
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x512_S1x512_0_0 : ∀ a, (![0, 0] : Fin 2 → Nat) a + S1x512.size a ≤ S1x512.size a
  h_S1x512 : 0 < S1x512.numel
  shapeCasts_S1x512_S512 : S1x512.ShapeCasts S512
  iota_S180x512_d0_w32 : S180x512.Iotas .tc 32 [0]
  shapeCasts_S512_S1x512 : S512.ShapeCasts S1x512
  broadcasts_S1x512_S180x512 : S1x512.Broadcasts S180x512
  natLt_1_32 : 1 < 32
  inb_S32x180x768_S1x180x768_0_0_0 : ∀ a, (![0, 0, 0] : Fin 3 → Nat) a + S1x180x768.size a ≤ S32x180x768.size a
  h_S1x180x768 : 0 < S1x180x768.numel
  shapeCasts_S1x180x768_S180x768 : S1x180x768.ShapeCasts S180x768
  reduces_S180x512_S512 : S180x512.Reduces [0] S512
  inb_S32x512_S1x512_0_0 : ∀ a, (![0, 0] : Fin 2 → Nat) a + S1x512.size a ≤ S32x512.size a
  inb_S32x180x768_S1x180x768_1_0_0 : ∀ a, (![1, 0, 0] : Fin 3 → Nat) a + S1x180x768.size a ≤ S32x180x768.size a
  inb_S32x512_S1x512_1_0 : ∀ a, (![1, 0] : Fin 2 → Nat) a + S1x512.size a ≤ S32x512.size a
  inb_S32x180x768_S1x180x768_2_0_0 : ∀ a, (![2, 0, 0] : Fin 3 → Nat) a + S1x180x768.size a ≤ S32x180x768.size a
  inb_S32x512_S1x512_2_0 : ∀ a, (![2, 0] : Fin 2 → Nat) a + S1x512.size a ≤ S32x512.size a
  inb_S32x180x768_S1x180x768_3_0_0 : ∀ a, (![3, 0, 0] : Fin 3 → Nat) a + S1x180x768.size a ≤ S32x180x768.size a
  inb_S32x512_S1x512_3_0 : ∀ a, (![3, 0] : Fin 2 → Nat) a + S1x512.size a ≤ S32x512.size a
  inb_S32x180x768_S1x180x768_4_0_0 : ∀ a, (![4, 0, 0] : Fin 3 → Nat) a + S1x180x768.size a ≤ S32x180x768.size a
  inb_S32x512_S1x512_4_0 : ∀ a, (![4, 0] : Fin 2 → Nat) a + S1x512.size a ≤ S32x512.size a
  inb_S32x180x768_S1x180x768_5_0_0 : ∀ a, (![5, 0, 0] : Fin 3 → Nat) a + S1x180x768.size a ≤ S32x180x768.size a
  inb_S32x512_S1x512_5_0 : ∀ a, (![5, 0] : Fin 2 → Nat) a + S1x512.size a ≤ S32x512.size a
  inb_S32x180x768_S1x180x768_6_0_0 : ∀ a, (![6, 0, 0] : Fin 3 → Nat) a + S1x180x768.size a ≤ S32x180x768.size a
  inb_S32x512_S1x512_6_0 : ∀ a, (![6, 0] : Fin 2 → Nat) a + S1x512.size a ≤ S32x512.size a
  inb_S32x180x768_S1x180x768_7_0_0 : ∀ a, (![7, 0, 0] : Fin 3 → Nat) a + S1x180x768.size a ≤ S32x180x768.size a
  inb_S32x512_S1x512_7_0 : ∀ a, (![7, 0] : Fin 2 → Nat) a + S1x512.size a ≤ S32x512.size a
  inb_S32x180x768_S1x180x768_8_0_0 : ∀ a, (![8, 0, 0] : Fin 3 → Nat) a + S1x180x768.size a ≤ S32x180x768.size a
  inb_S32x512_S1x512_8_0 : ∀ a, (![8, 0] : Fin 2 → Nat) a + S1x512.size a ≤ S32x512.size a
  inb_S32x180x768_S1x180x768_9_0_0 : ∀ a, (![9, 0, 0] : Fin 3 → Nat) a + S1x180x768.size a ≤ S32x180x768.size a
  inb_S32x512_S1x512_9_0 : ∀ a, (![9, 0] : Fin 2 → Nat) a + S1x512.size a ≤ S32x512.size a
  inb_S32x180x768_S1x180x768_10_0_0 : ∀ a, (![10, 0, 0] : Fin 3 → Nat) a + S1x180x768.size a ≤ S32x180x768.size a
  inb_S32x512_S1x512_10_0 : ∀ a, (![10, 0] : Fin 2 → Nat) a + S1x512.size a ≤ S32x512.size a
  inb_S32x180x768_S1x180x768_11_0_0 : ∀ a, (![11, 0, 0] : Fin 3 → Nat) a + S1x180x768.size a ≤ S32x180x768.size a
  inb_S32x512_S1x512_11_0 : ∀ a, (![11, 0] : Fin 2 → Nat) a + S1x512.size a ≤ S32x512.size a
  inb_S32x180x768_S1x180x768_12_0_0 : ∀ a, (![12, 0, 0] : Fin 3 → Nat) a + S1x180x768.size a ≤ S32x180x768.size a
  inb_S32x512_S1x512_12_0 : ∀ a, (![12, 0] : Fin 2 → Nat) a + S1x512.size a ≤ S32x512.size a
  inb_S32x180x768_S1x180x768_13_0_0 : ∀ a, (![13, 0, 0] : Fin 3 → Nat) a + S1x180x768.size a ≤ S32x180x768.size a
  inb_S32x512_S1x512_13_0 : ∀ a, (![13, 0] : Fin 2 → Nat) a + S1x512.size a ≤ S32x512.size a
  inb_S32x180x768_S1x180x768_14_0_0 : ∀ a, (![14, 0, 0] : Fin 3 → Nat) a + S1x180x768.size a ≤ S32x180x768.size a
  inb_S32x512_S1x512_14_0 : ∀ a, (![14, 0] : Fin 2 → Nat) a + S1x512.size a ≤ S32x512.size a
  inb_S32x180x768_S1x180x768_15_0_0 : ∀ a, (![15, 0, 0] : Fin 3 → Nat) a + S1x180x768.size a ≤ S32x180x768.size a
  inb_S32x512_S1x512_15_0 : ∀ a, (![15, 0] : Fin 2 → Nat) a + S1x512.size a ≤ S32x512.size a
  inb_S32x180x768_S1x180x768_16_0_0 : ∀ a, (![16, 0, 0] : Fin 3 → Nat) a + S1x180x768.size a ≤ S32x180x768.size a
  inb_S32x512_S1x512_16_0 : ∀ a, (![16, 0] : Fin 2 → Nat) a + S1x512.size a ≤ S32x512.size a
  inb_S32x180x768_S1x180x768_17_0_0 : ∀ a, (![17, 0, 0] : Fin 3 → Nat) a + S1x180x768.size a ≤ S32x180x768.size a
  inb_S32x512_S1x512_17_0 : ∀ a, (![17, 0] : Fin 2 → Nat) a + S1x512.size a ≤ S32x512.size a
  inb_S32x180x768_S1x180x768_18_0_0 : ∀ a, (![18, 0, 0] : Fin 3 → Nat) a + S1x180x768.size a ≤ S32x180x768.size a
  inb_S32x512_S1x512_18_0 : ∀ a, (![18, 0] : Fin 2 → Nat) a + S1x512.size a ≤ S32x512.size a
  inb_S32x180x768_S1x180x768_19_0_0 : ∀ a, (![19, 0, 0] : Fin 3 → Nat) a + S1x180x768.size a ≤ S32x180x768.size a
  inb_S32x512_S1x512_19_0 : ∀ a, (![19, 0] : Fin 2 → Nat) a + S1x512.size a ≤ S32x512.size a
  inb_S32x180x768_S1x180x768_20_0_0 : ∀ a, (![20, 0, 0] : Fin 3 → Nat) a + S1x180x768.size a ≤ S32x180x768.size a
  inb_S32x512_S1x512_20_0 : ∀ a, (![20, 0] : Fin 2 → Nat) a + S1x512.size a ≤ S32x512.size a
  inb_S32x180x768_S1x180x768_21_0_0 : ∀ a, (![21, 0, 0] : Fin 3 → Nat) a + S1x180x768.size a ≤ S32x180x768.size a
  inb_S32x512_S1x512_21_0 : ∀ a, (![21, 0] : Fin 2 → Nat) a + S1x512.size a ≤ S32x512.size a
  inb_S32x180x768_S1x180x768_22_0_0 : ∀ a, (![22, 0, 0] : Fin 3 → Nat) a + S1x180x768.size a ≤ S32x180x768.size a
  inb_S32x512_S1x512_22_0 : ∀ a, (![22, 0] : Fin 2 → Nat) a + S1x512.size a ≤ S32x512.size a
  inb_S32x180x768_S1x180x768_23_0_0 : ∀ a, (![23, 0, 0] : Fin 3 → Nat) a + S1x180x768.size a ≤ S32x180x768.size a
  inb_S32x512_S1x512_23_0 : ∀ a, (![23, 0] : Fin 2 → Nat) a + S1x512.size a ≤ S32x512.size a
  inb_S32x180x768_S1x180x768_24_0_0 : ∀ a, (![24, 0, 0] : Fin 3 → Nat) a + S1x180x768.size a ≤ S32x180x768.size a
  inb_S32x512_S1x512_24_0 : ∀ a, (![24, 0] : Fin 2 → Nat) a + S1x512.size a ≤ S32x512.size a
  inb_S32x180x768_S1x180x768_25_0_0 : ∀ a, (![25, 0, 0] : Fin 3 → Nat) a + S1x180x768.size a ≤ S32x180x768.size a
  inb_S32x512_S1x512_25_0 : ∀ a, (![25, 0] : Fin 2 → Nat) a + S1x512.size a ≤ S32x512.size a
  inb_S32x180x768_S1x180x768_26_0_0 : ∀ a, (![26, 0, 0] : Fin 3 → Nat) a + S1x180x768.size a ≤ S32x180x768.size a
  inb_S32x512_S1x512_26_0 : ∀ a, (![26, 0] : Fin 2 → Nat) a + S1x512.size a ≤ S32x512.size a
  inb_S32x180x768_S1x180x768_27_0_0 : ∀ a, (![27, 0, 0] : Fin 3 → Nat) a + S1x180x768.size a ≤ S32x180x768.size a
  inb_S32x512_S1x512_27_0 : ∀ a, (![27, 0] : Fin 2 → Nat) a + S1x512.size a ≤ S32x512.size a
  inb_S32x180x768_S1x180x768_28_0_0 : ∀ a, (![28, 0, 0] : Fin 3 → Nat) a + S1x180x768.size a ≤ S32x180x768.size a
  inb_S32x512_S1x512_28_0 : ∀ a, (![28, 0] : Fin 2 → Nat) a + S1x512.size a ≤ S32x512.size a
  inb_S32x180x768_S1x180x768_29_0_0 : ∀ a, (![29, 0, 0] : Fin 3 → Nat) a + S1x180x768.size a ≤ S32x180x768.size a
  inb_S32x512_S1x512_29_0 : ∀ a, (![29, 0] : Fin 2 → Nat) a + S1x512.size a ≤ S32x512.size a
  inb_S32x180x768_S1x180x768_30_0_0 : ∀ a, (![30, 0, 0] : Fin 3 → Nat) a + S1x180x768.size a ≤ S32x180x768.size a
  inb_S32x512_S1x512_30_0 : ∀ a, (![30, 0] : Fin 2 → Nat) a + S1x512.size a ≤ S32x512.size a
  inb_S32x180x768_S1x180x768_31_0_0 : ∀ a, (![31, 0, 0] : Fin 3 → Nat) a + S1x180x768.size a ≤ S32x180x768.size a
  inb_S32x512_S1x512_31_0 : ∀ a, (![31, 0] : Fin 2 → Nat) a + S1x512.size a ≤ S32x512.size a
  slices_S32x19456_S32x19004_0_0 : S32x19456.Slices ![0, 0] S32x19004
  dot_S180x768_S512x768_S180x512_1_1_0_0_n_n_wf : DotDims.WF S180x768 S512x768 S180x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x180x768.size a ≤ S32x180x768.size a
  hwx0_0 : ∀ i : grid0.Coords, EltTy.bits .bf16 = 32 ∨ (Rect.block (s := S32x180x768) S32x180x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S19456x768.size a
  hwx0_1 : ∀ i : grid0.Coords, EltTy.bits .bf16 = 32 ∨ (Rect.block (s := S19456x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x19456.size a
  hwx0_2 : ∀ i : grid0.Coords, EltTy.bits .f32 = 32 ∨ (Rect.block (s := S1x19456) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x19456.size a
  hwx0_3 : ∀ i : grid0.Coords, EltTy.bits .i32 = 32 ∨ (Rect.block (s := S1x19456) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x19456.size a
  hwx0_4 : ∀ i : grid0.Coords, EltTy.bits .f32 = 32 ∨ (Rect.block (s := S32x19456) S32x512.size (cc0_transform_4 i) (hinb0_4 i)).WholeWords (EltTy.packing .f32)

variable [Facts₀]

def dot_S180x768_S512x768_S180x512_1_1_0_0_n_n : DotDims S180x768 S512x768 S180x512 where
  lhsContracting := [1]
  rhsContracting := [1]
  lhsNonContracting := [0]
  rhsNonContracting := [0]
  lhsBatch := []
  rhsBatch := []
  wf := dot_S180x768_S512x768_S180x512_1_1_0_0_n_n_wf

abbrev win0_0 : Pipeline.Window sig grid0 :=
  Pipeline.Window.ofSpec (Memref.whole main_v0) S32x180x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x180x768 : Shape := ⟨3, ![32, 180, 768]⟩
abbrev S19004x768 : Shape := ⟨2, ![19004, 768]⟩
abbrev S19004 : Shape := ⟨1, ![19004]⟩
abbrev S32x180x19004 : Shape := ⟨3, ![32, 180, 19004]⟩
abbrev S1x1x19004 : Shape := ⟨3, ![1, 1, 19004]⟩
abbrev S32x19004x180 : Shape := ⟨3, ![32, 19004, 180]⟩
abbrev S19004x1 : Shape := ⟨2, ![19004, 1]⟩
abbrev S1x180 : Shape := ⟨2, ![1, 180]⟩
abbrev S19004x180 : Shape := ⟨2, ![19004, 180]⟩
abbrev S1x19004x180 : Shape := ⟨3, ![1, 19004, 180]⟩
abbrev S_ : Shape := ⟨0, ![]⟩
abbrev S32x19004 : Shape := ⟨2, ![32, 19004]⟩

abbrev nBuf : Space → Nat
  | .hbm => 20
  | .vmem => 0
  | .smem => 0
  | _ => 0

abbrev bufTy : (tb : Table) → Fin (tcTables nBuf tb) → BufTy
  | .hbm, ⟨0, _⟩ => ⟨S32x180x768, .f32⟩
  | .hbm, ⟨1, _⟩ => ⟨S19004x768, .f32⟩
  | .hbm, ⟨2, _⟩ => ⟨S19004, .f32⟩
  | .hbm, ⟨3, _⟩ => ⟨S19004, .i32⟩
  | .hbm, ⟨4, _⟩ => ⟨S32x180x19004, .f32⟩
  | .hbm, ⟨5, _⟩ => ⟨S1x1x19004, .f32⟩
  | .hbm, ⟨6, _⟩ => ⟨S32x180x19004, .f32⟩
  | .hbm, ⟨7, _⟩ => ⟨S32x180x19004, .f32⟩
  | .hbm, ⟨8, _⟩ => ⟨S32x19004x180, .f32⟩
  | .hbm, ⟨9, _⟩ => ⟨S19004x1, .i32⟩
  | .hbm, ⟨10, _⟩ => ⟨S1x180, .i32⟩
  | .hbm, ⟨11, _⟩ => ⟨S19004x180, .i32⟩
  | .hbm, ⟨12, _⟩ => ⟨S19004x180, .i32⟩
  | .hbm, ⟨13, _⟩ => ⟨S19004x180, .i1⟩
  | .hbm, ⟨14, _⟩ => ⟨S19004x180, .f32⟩
  | .hbm, ⟨15, _⟩ => ⟨S1x19004x180, .f32⟩
  | .hbm, ⟨16, _⟩ => ⟨S32x19004x180, .f32⟩
  | .hbm, ⟨17, _⟩ => ⟨S32x19004x180, .f32⟩
  | .hbm, ⟨18, _⟩ => ⟨S_, .f32⟩
  | .hbm, ⟨19, _⟩ => ⟨S32x19004, .f32⟩
  | _, _ => ⟨S32x180x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S19004_S1x1x19004_2 : S19004.BroadcastsInDim S1x1x19004 (![2] : Fin 1 → Fin S1x1x19004.rank)
  bcast_S1x1x19004_S32x180x19004_0_1_2 : S1x1x19004.BroadcastsInDim S32x180x19004 (![0, 1, 2] : Fin 3 → Fin S32x180x19004.rank)
  transposes_S32x180x19004_S32x19004x180_0_2_1 : S32x180x19004.Transposes [0, 2, 1] S32x19004x180
  bcast_S19004_S19004x1_0 : S19004.BroadcastsInDim S19004x1 (![0] : Fin 1 → Fin S19004x1.rank)
  bcast_S19004x1_S19004x180_0_1 : S19004x1.BroadcastsInDim S19004x180 (![0, 1] : Fin 2 → Fin S19004x180.rank)
  bcast_S1x180_S19004x180_0_1 : S1x180.BroadcastsInDim S19004x180 (![0, 1] : Fin 2 → Fin S19004x180.rank)
  bcast_S19004x180_S1x19004x180_1_2 : S19004x180.BroadcastsInDim S1x19004x180 (![1, 2] : Fin 2 → Fin S1x19004x180.rank)
  bcast_S1x19004x180_S32x19004x180_0_1_2 : S1x19004x180.BroadcastsInDim S32x19004x180 (![0, 1, 2] : Fin 3 → Fin S32x19004x180.rank)
  reducesTo_S32x19004x180_S32x19004_d2 : S32x19004x180.ReducesTo [2] S32x19004
  h_S_ : 0 < S_.numel
  dot_S32x180x768_S19004x768_S32x180x19004_2_1_01_0_n_n_wf : DotDims.WF S32x180x768 S19004x768 S32x180x19004 [2] [1] [0, 1] [0] [] []

variable [Facts₀]

def dot_S32x180x768_S19004x768_S32x180x19004_2_1_01_0_n_n : DotDims S32x180x768 S19004x768 S32x180x19004 where
  lhsContracting := [2]
  rhsContracting := [1]
  lhsNonContracting := [0, 1]
  rhsNonContracting := [0]
  lhsBatch := []
  rhsBatch := []
  wf := dot_S32x180x768_S19004x768_S32x180x19004_2_1_01_0_n_n_wf

class Facts : Prop extends Facts₀ where

variable [Facts]
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibWords.lean ====
/-
  Words and numbers.

  One-bit words widened to 32 bits, read as signed integers or as words of naturals; the signed comparisons by the
  integers; a natural number below 2^31 converted from the extended reals to a 32-bit word; and 32-bit words of
  naturals added up.
-/
import Idealize.ShloMosaic.PureOps.Ideal
import Idealize.ShloMosaic.PureOps.Reduce
import Mathlib.Algebra.BigOperators.Fin

noncomputable section

open Idealize.ShloMosaic Finset

namespace Cert.LibWords

/-- A one-bit word widened to 32 bits and read as a signed integer is the bit. -/
theorem toInt_setWidth_bit (b : BitVec 1) : (b.setWidth 32).toInt = (b.toNat : ℤ) := by
  rcases BitVec.eq_zero_or_eq_one b with h | h <;> subst h <;> decide

/-- A signed "less than" word that is 1 says the integers compare. -/
theorem lt_of_cmpi_slt {x y : BitVec 32} (h : IntOp.cmpi .slt x y = 1#1) : x.toInt < y.toInt := by
  by_contra hn
  have e : IntOp.cmpi .slt x y = 0#1 := by
    show BitVec.ofBool (x.slt y) = 0#1
    rw [show x.slt y = false from by simp [BitVec.slt, hn]]
    rfl
  rw [e] at h
  exact absurd h (by decide)

/-- The signed "greater than" word, by the integers. -/
theorem cmpi_sgt_eq (x y : BitVec 32) : IntOp.cmpi .sgt x y = BitVec.ofBool (decide (y.toInt < x.toInt)) := by
  show BitVec.ofBool (y.slt x) = _
  simp [BitVec.slt]

/-- A natural number below 2^31, as an extended real, converts to the 32-bit word of that number. -/
theorem fptosi_natCast (n : ℕ) (hn : n < 2 ^ 31) : Ideal.fptosi 32 ((n : ℕ) : EReal) = BitVec.ofNat 32 n := by
  unfold Ideal.fptosi
  rw [← EReal.coe_natCast, Ideal.toIntClamped_coe, if_pos (Nat.cast_nonneg n), Int.floor_natCast]
  have h1 : max (-((2 ^ (32 - 1) : ℕ) : ℤ)) (min (((2 ^ (32 - 1) : ℕ) : ℤ) - 1) (n : ℤ)) = (n : ℤ) := by
    have : ((2 ^ (32 - 1) : ℕ) : ℤ) = 2147483648 := by norm_num
    rw [this]
    have hn' : (n : ℤ) < 2147483648 := by exact_mod_cast (by norm_num at hn ⊢; exact hn : n < 2147483648)
    omega
  rw [h1]
  exact BitVec.ofInt_natCast _ _

/-- Words of natural numbers added up from zero give the word of the sum. -/
theorem fold_addi_ofNat {ι : Type} (S : Finset ι) (n : ι → ℕ) :
    S.fold IntOp.addi (0#32) (fun k => BitVec.ofNat 32 (n k)) = BitVec.ofNat 32 (∑ k ∈ S, n k) := by
  classical
  induction S using Finset.induction_on with
  | empty => rfl
  | insert a S ha ih =>
    rw [Finset.fold_insert ha, ih, Finset.sum_insert ha]
    show BitVec.ofNat 32 (n a) + BitVec.ofNat 32 _ = _
    rw [BitVec.ofNat_add]

/-- A one-bit word widened to 32 bits is the word of the bit. -/
theorem setWidth_bit (b : BitVec 1) : b.setWidth 32 = BitVec.ofNat 32 b.toNat := by
  rcases BitVec.eq_zero_or_eq_one b with h | h <;> subst h <;> decide

end Cert.LibWords
-- ==== Proof.LibOneHot.lean ====
/-
  Selecting one class by a one-hot weight.

  A label is a 32-bit word `w`; class `q` (one of `n`) weighs 1 when `w` is the word of `q` and 0 otherwise. A kernel
  typically builds the weight as the comparison bit widened to 32 bits and read as a signed integer, a host program as the
  comparison bit read as an unsigned integer: both are this weight, at the exact (extended-real) values.

  When the label is the word of some class `p` (and the classes are few enough for their words to be distinct,
  n ≤ 2^32), a sum over the classes weighted this way keeps exactly the term at `p`: Σ_q f q · weight q = f p, since every
  other term is a product with zero — which is zero for every extended real, infinities included, so no finiteness is
  used. Hence adding a bias after the weighted sum or inside it gives the same number, f p + β.

  A label that is at least 0 and less than n as a signed integer (n < 2^31) is the word of a class.
-/
import Idealize.ShloMosaic.PureOps.Ideal
import Idealize.ShloMosaic.PureOps.Ideal.Laws
import proofs.«133748_j39333310496946_1_alg».proof.Proof.LibWords

noncomputable section

open scoped BigOperators

namespace Cert.LibOneHot

open Idealize.ShloMosaic

/-- The weight of class `q` for the label word `w`. -/
def weight {n : ℕ} (w : BitVec 32) (q : Fin n) : EReal := if w = BitVec.ofNat 32 q.val then 1 else 0

/-- The comparison bit "the word of q equals w", widened to 32 bits and read as a signed integer, is the weight. -/
theorem sitofp_extui_eq {n : ℕ} (w : BitVec 32) (q : Fin n) :
    FloatOps.sitofp (F := Ideal) .f32 ((IntOp.cmpi .eq (BitVec.ofNat 32 q.val) w).setWidth 32) = weight w q := by
  show (((((IntOp.cmpi .eq (BitVec.ofNat 32 q.val) w).setWidth 32).toInt : ℤ) : ℝ) : EReal) = _
  rw [Cert.LibWords.toInt_setWidth_bit]
  unfold weight
  by_cases h : w = BitVec.ofNat 32 q.val
  · rw [if_pos h, h]
    have : IntOp.cmpi .eq (BitVec.ofNat 32 q.val) (BitVec.ofNat 32 q.val) = 1#1 := by
      show BitVec.ofBool (BitVec.ofNat 32 q.val == BitVec.ofNat 32 q.val) = 1#1
      rw [beq_self_eq_true]; rfl
    rw [this]; norm_num
  · rw [if_neg h]
    have : IntOp.cmpi .eq (BitVec.ofNat 32 q.val) w = 0#1 := by
      show BitVec.ofBool (BitVec.ofNat 32 q.val == w) = 0#1
      rw [show (BitVec.ofNat 32 q.val == w) = false from beq_eq_false_iff_ne.mpr (fun e => h e.symm)]; rfl
    rw [this]; norm_num

/-- The comparison bit "w equals the word of q", read as an unsigned integer, is the weight. -/
theorem uitofp_eq {n : ℕ} (w : BitVec 32) (q : Fin n) :
    FloatOps.uitofp (F := Ideal) .f32 (IntOp.cmpi .eq w (BitVec.ofNat 32 q.val)) = weight w q := by
  show ((((IntOp.cmpi .eq w (BitVec.ofNat 32 q.val)).toNat : ℕ) : ℝ) : EReal) = _
  unfold weight
  by_cases h : w = BitVec.ofNat 32 q.val
  · rw [if_pos h, h]
    have : IntOp.cmpi .eq (BitVec.ofNat 32 q.val) (BitVec.ofNat 32 q.val) = 1#1 := by
      show BitVec.ofBool (BitVec.ofNat 32 q.val == BitVec.ofNat 32 q.val) = 1#1
      rw [beq_self_eq_true]; rfl
    rw [this]; norm_num
  · rw [if_neg h]
    have : IntOp.cmpi .eq w (BitVec.ofNat 32 q.val) = 0#1 := by
      show BitVec.ofBool (w == BitVec.ofNat 32 q.val) = 0#1
      rw [show (w == BitVec.ofNat 32 q.val) = false from beq_eq_false_iff_ne.mpr h]; rfl
    rw [this]; norm_num

/-- For the word of class `p`, the weight of `q` is 1 at `q = p` and 0 elsewhere. -/
theorem weight_ofNat {n : ℕ} (hn : n ≤ 2 ^ 32) (p q : Fin n) :
    weight (BitVec.ofNat 32 p.val) q = if q = p then 1 else 0 := by
  unfold weight
  by_cases h : q = p
  · rw [if_pos h, h, if_pos rfl]
  · rw [if_neg h, if_neg]
    intro e
    apply h
    have := congrArg BitVec.toNat e
    rw [BitVec.toNat_ofNat, BitVec.toNat_ofNat] at this
    have hp := p.isLt; have hq := q.isLt
    apply Fin.ext
    omega

/-- A weighted sum for the word of class `p` keeps the term at `p`. -/
theorem sum_weight {n : ℕ} (hn : n ≤ 2 ^ 32) (p : Fin n) (f : Fin n → EReal) :
    ∑ q : Fin n, f q * weight (BitVec.ofNat 32 p.val) q = f p := by
  rw [Finset.sum_eq_single p]
  · rw [weight_ofNat hn, if_pos rfl, mul_one]
  · intro q _ hq; rw [weight_ofNat hn, if_neg hq, mul_zero]
  · intro h; exact absurd (Finset.mem_univ p) h

/-- For the word of a class, a bias added after the weighted sum is the bias added inside it (with the sum started from
    the zero word). -/
theorem bias_after_eq_bias_inside {n : ℕ} (hn : n ≤ 2 ^ 32) (p : Fin n) (f : Fin n → EReal) (β : EReal) :
    (∑ q : Fin n, f q * weight (BitVec.ofNat 32 p.val) q) + β
      = Ideal.ofBits .f32 0x00000000#32 + ∑ q : Fin n, (f q + β) * weight (BitVec.ofNat 32 p.val) q := by
  rw [sum_weight hn p f, sum_weight hn p (fun q => f q + β), Ideal.ofBits_zero_f32, zero_add]

/-- A label word at least 0 and below n, as signed integers, is the word of a class. -/
theorem exists_class_of_range {n : ℕ} (hn : n < 2 ^ 31) (w : BitVec 32) (h0 : IntOp.cmpi .sge w 0#32 = 1#1)
    (h1 : IntOp.cmpi .slt w (BitVec.ofNat 32 n) = 1#1) : ∃ p : Fin n, w = BitVec.ofNat 32 p.val := by
  have l1 : w.toInt < (BitVec.ofNat 32 n).toInt := Cert.LibWords.lt_of_cmpi_slt h1
  have l0 : (0 : ℤ) ≤ w.toInt := by
    by_contra hneg
    have e : IntOp.cmpi .sge w 0#32 = 0#1 := by
      show BitVec.ofBool ((0#32 : BitVec 32).sle w) = 0#1
      rw [show (0#32 : BitVec 32).sle w = false from by simp [BitVec.sle]; omega]
      rfl
    rw [e] at h0
    exact absurd h0 (by decide)
  have en : (BitVec.ofNat 32 n).toInt = (n : ℤ) := by
    have := BitVec.toInt_eq_toNat_cond (BitVec.ofNat 32 n)
    rw [BitVec.toNat_ofNat] at this
    split_ifs at this <;> omega
  rw [en] at l1
  have hlt : w.toNat < n := by
    have := BitVec.toInt_eq_toNat_cond w
    have hw := w.isLt
    split_ifs at this <;> omega
  refine ⟨⟨w.toNat, hlt⟩, BitVec.eq_of_toNat_eq ?_⟩
  show w.toNat = (BitVec.ofNat 32 w.toNat).toNat
  rw [BitVec.toNat_ofNat]
  have := w.isLt
  omega

end Cert.LibOneHot

end
-- ==== Proof.RowValue.lean ====
/-
  One row of the output tile, read at a column.

  For one batch entry the body multiplies the entry's [180, 768] activations by the tile's [512, 768] weights along the
  shared last axis, multiplies the [180, 512] product by the one-hot weights of the tile's parcel ids (query q against the
  id of column j), sums over the 180 queries and adds the tile's bias. At column j of the tile this is

      (Σ_q (Σ_h x (q, h) · w (j, h)) · weight (id j) q) + bias j

  over the extended reals: the matrix product into a zero accumulator is the sum over the shared axis, the reduction over
  the first axis is the sum over the queries, and the layout steps (a leading unit axis dropped or added, one row
  broadcast over the queries) only rename indices.
-/
import proofs.«133748_j39333310496946_1_alg».proof.Proof.Gen.KernelIdeal.Skeleton
import proofs.«133748_j39333310496946_1_alg».proof.Proof.LibDotT
import proofs.«133748_j39333310496946_1_alg».proof.Proof.LibCols
import proofs.«133748_j39333310496946_1_alg».proof.Proof.LibOneHot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- The value of one row of the tile at column `j`, from the tile's weights, bias and ids and the row's activations. -/
def rowFn (w : S512x768.Idx → EReal) (bias : S1x512.Idx → EReal) (pid : S1x512.Idx → BitVec 32)
    (xb : S1x180x768.Idx → EReal) (j : Fin 512) : EReal :=
  (∑ q : Fin 180, (∑ h : Fin 768, xb (ix3 (0 : Fin 1) q h) * w (ix2 j h)) * Cert.LibOneHot.weight (pid (ix2 (0 : Fin 1) j)) q)
    + bias (ix2 (0 : Fin 1) j)

/-- The one-hot weights the body builds from the ids, at query `q` and column `j`. -/
theorem mask_apply (pid : Vec Ideal S1x512 .i32) (q : Fin 180) (j : Fin 512) :
    k0_pay4 (F := Ideal) pid (ix2 q j) = Cert.LibOneHot.weight (pid (ix2 (0 : Fin 1) j)) q := by
  unfold k0_pay4
  rw [sitofp_apply, extui_apply]
  show FloatOps.sitofp (F := Ideal) .f32 ((IntOp.cmpi .eq (iota .tc S180x512 32 [0] iota_S180x512_d0_w32 (ix2 q j))
    (broadcastTo S180x512 (shapeCast S1x512 (shapeCast S512 pid shapeCasts_S1x512_S512) shapeCasts_S512_S1x512) broadcasts_S1x512_S180x512 (ix2 q j))).setWidth 32) = _
  rw [iota_single_apply, broadcastTo_1b_ab_apply, shapeCast_shapeCast]
  exact Cert.LibOneHot.sitofp_extui_eq _ q

/-- The matrix product of the row's activations with the tile's weights, at query `q` and column `j`. -/
theorem prod_apply (w : Vec Ideal S512x768 .bf16) (xb : Vec Ideal S1x180x768 .bf16) (q : Fin 180) (j : Fin 512) :
    matmul dot_S180x768_S512x768_S180x512_1_1_0_0_n_n none
        (shapeCast S180x768 xb shapeCasts_S1x180x768_S180x768 : FVec Ideal S180x768 .bf16)
        (k0_pay2 (F := Ideal) w) (constant (F := Ideal) S180x512 .f32 0x00000000#32) (ix2 q j)
      = ∑ h : Fin 768, xb (ix3 (0 : Fin 1) q h) * w (ix2 j h) := by
  refine (Cert.LibDotT.matmulT_zero_apply dot_S180x768_S512x768_S180x512_1_1_0_0_n_n rfl rfl rfl rfl
    (fun _ _ => rfl) (fun _ _ => rfl) none _ _ q j).trans ?_
  refine Finset.sum_congr rfl fun h _ => ?_
  unfold k0_pay2
  rw [shapeCast_1ab_ab_apply, shapeCast_self]

/-- THE ROW: the body's payload for one batch entry, at any column of its [1, 512] row, is `rowFn`. -/
theorem pay_apply (w : Vec Ideal S512x768 .bf16) (bias : Vec Ideal S1x512 .f32) (pid : Vec Ideal S1x512 .i32)
    (xb : Vec Ideal S1x180x768 .bf16) (u : Fin 1) (j : Fin 512) :
    k0_pay5 (F := Ideal) w bias pid xb (ix2 u j) = rowFn w bias pid xb j := by
  unfold k0_pay5
  refine (shapeCast_a_1a_apply _ _ u j).trans ?_
  refine (addf_apply _ _ _).trans ?_
  unfold rowFn
  refine congrArg₂ (· + ·) ?_ ?_
  · refine (colSum_apply _ _ _ _ _ j).trans ?_
    refine Finset.sum_congr rfl fun q _ => ?_
    refine (mulf_apply _ _ _).trans ?_
    exact congrArg₂ (· * ·) (prod_apply w xb q j) (mask_apply pid q j)
  · unfold k0_pay3
    exact shapeCast_1a_a_apply _ _ j

end Cert.KernelIdeal.Row

end
-- ==== Proof.TileValue.lean ====
/-
  The output tile of one grid point as one function of its input blocks.

  The body stores the [32, 512] tile one row at a time: row b is the row function of the tile's weights, bias and ids and of
  the activations of batch entry b (the b-th [1, 180, 768] slab of the resident activations). All 32 stores therefore
  restrict ONE function of the tile index (b, j),

      tile (b, j) = (Σ_q (Σ_h x (b, q, h) · w (j, h)) · weight (id j) q) + bias j,

  and since the 32 rows tile the buffer, the buffer after the body is that function.
-/
import proofs.«133748_j39333310496946_1_alg».proof.Proof.Gen.KernelIdeal.Frame
import proofs.«133748_j39333310496946_1_alg».proof.Proof.RowValue

noncomputable section

open scoped BigOperators

namespace Cert.KernelIdeal.Tile

open Cert.KernelIdeal Cert.KernelIdeal.Gen Cert.KernelIdeal.Row Idealize.ShloMosaic Idealize.ShloMosaic.ValueIdx

/-- The tile at row `b` and column `j`, from the resident activations and the tile's weights, bias and ids. -/
def tileAt (x : S32x180x768.Idx → EReal) (w : S512x768.Idx → EReal) (bias : S1x512.Idx → EReal)
    (pid : S1x512.Idx → BitVec 32) (b : Fin 32) (j : Fin 512) : EReal :=
  (∑ q : Fin 180, (∑ h : Fin 768, x (ix3 b q h) * w (ix2 j h)) * Cert.LibOneHot.weight (pid (ix2 (0 : Fin 1) j)) q)
    + bias (ix2 (0 : Fin 1) j)

/-- The tile as a function of the tile index. -/
def tileFn (x : S32x180x768.Idx → EReal) (w : S512x768.Idx → EReal) (bias : S1x512.Idx → EReal)
    (pid : S1x512.Idx → BitVec 32) : S32x512.Idx → EReal := fun y => tileAt x w bias pid (y 0) (y 1)

theorem zero2 : (![0, 0] : Fin 2 → Nat) = fun _ => 0 := funext fun a => by fin_cases a <;> rfl

/-- One store: the row payload of batch entry `b`, stored through row `b` of the tile, is the tile function there. -/
theorem row_piece (x0 : Vec Ideal S32x180x768 .bf16) (x1 : Vec Ideal S512x768 .bf16) (x2 : Vec Ideal S1x512 .f32)
    (x3 : Vec Ideal S1x512 .i32) (b : Nat)
    (inb : ∀ a, (![b, 0, 0] : Fin 3 → Nat) a + S1x180x768.size a ≤ S32x180x768.size a)
    (inb' : ∀ a, (![b, 0] : Fin 2 → Nat) a + S1x512.size a ≤ S32x512.size a)
    (pay : Vec Ideal S1x512 .f32)
    (hpay : pay = k0_pay5 (F := Ideal) (View.ld x1 r0_0) (View.ld x2 r0_1) (View.ld x3 r0_1)
      (View.ld x0 (Rect.unit (s := S32x180x768) ![b, 0, 0] S1x180x768.size inb)))
    (y : S1x512.Idx) :
    pay y = tileFn x0 x1 x2 x3 ((Rect.unit (s := S32x512) ![b, 0] S1x512.size inb').emb y) := by
  subst hpay
  obtain ⟨u, j, rfl⟩ : ∃ (u : Fin 1) (j : Fin 512), y = ix2 u j := ⟨y 0, y 1, eq_ix2 y⟩
  refine (pay_apply _ _ _ _ u j).trans ?_
  have hu : u.val = 0 := by omega
  have hb : b < 32 := by have := inb' 0; show b < 32; have e : (![b, 0] : Fin 2 → Nat) 0 + S1x512.size 0 = b + 1 := rfl; have e' : S32x512.size 0 = 32 := rfl; omega
  have e0 : ((Rect.unit (s := S32x512) ![b, 0] S1x512.size inb').emb (ix2 u j)) 0 = (⟨b, hb⟩ : Fin 32) :=
    Fin.ext (by show b + 1 * u.val = b; omega)
  have e1 : ((Rect.unit (s := S32x512) ![b, 0] S1x512.size inb').emb (ix2 u j)) 1 = j :=
    Fin.ext (by show 0 + 1 * j.val = j.val; omega)
  refine Eq.trans ?_ (congrArg₂ (tileAt x0 x1 x2 x3) e0.symm e1.symm)
  unfold rowFn tileAt
  have ew : ∀ z, View.ld x1 r0_0 z = x1 z := fun z => congrFun (View.ld_unit_zero zero2 _ x1) z
  have eb : ∀ z, View.ld x2 r0_1 z = x2 z := fun z => congrFun (View.ld_unit_zero zero2 _ x2) z
  have ep : ∀ z, View.ld x3 r0_1 z = x3 z := fun z => congrFun (View.ld_unit_zero zero2 _ x3) z
  have ex : ∀ (q : Fin 180) (h : Fin 768),
      View.ld x0 (Rect.unit (s := S32x180x768) ![b, 0, 0] S1x180x768.size inb) (ix3 (0 : Fin 1) q h)
        = x0 (ix3 (⟨b, hb⟩ : Fin 32) q h) := fun q h => by
    show x0 _ = x0 _
    refine congrArg x0 (funext fun a => Fin.ext ?_)
    match a with
    | ⟨0, _⟩ => show b + 1 * 0 = b; omega
    | ⟨1, _⟩ => show 0 + 1 * q.val = q.val; omega
    | ⟨2, _⟩ => show 0 + 1 * h.val = h.val; omega
  refine congrArg₂ (· + ·) ?_ (eb _)
  refine Finset.sum_congr rfl fun q _ => ?_
  refine congrArg₂ (· * ·) ?_ (congrArg (fun w => Cert.LibOneHot.weight w q) (ep _))
  exact Finset.sum_congr rfl fun h _ => congrArg₂ (· * ·) (ex q h) (ew _)

/-- THE TILE: what the body leaves in the output buffer is the tile function of the input blocks. -/
theorem out_eq (x0 : Vec Ideal S32x180x768 .bf16) (x1 : Vec Ideal S512x768 .bf16) (x2 : Vec Ideal S1x512 .f32)
    (x3 : Vec Ideal S1x512 .i32) : out0_4 (F := Ideal) x0 x1 x2 x3 = tileFn x0 x1 x2 x3 := by
  funext y
  unfold out0_4
  refine View.canon_apply_of_pieces (tileFn x0 x1 x2 x3) _ ?_ y (cover0_4 (F := Ideal) _ _ _ _ _ _ _ _ _ _ _ _ _ _ _ _ _ _ _ _ _ _ _ _ _ _ _ _ _ _ _ _ y)
  refine List.forall_iff_forall_mem.mp ?_
  simp only [List.Forall]
  repeat' apply And.intro
  all_goals exact fun z => row_piece x0 x1 x2 x3 _ _ _ _ rfl z

end Cert.KernelIdeal.Tile

end
-- ==== Proof.PaddedResult.lean ====
/-
  The padded result array after the region.

  Grid point t computes the [32, 512] tile of columns 512·t … 512·t + 511 from the whole resident activations and block t
  of the padded weights, bias and ids. Every tile is therefore the restriction of ONE function of the padded index (b, v),

      padded (b, v) = (Σ_q (Σ_h X (b, q, h) · Wp (v, h)) · weight (Pp v) q) + Bp v,

  of the arrays the region finds, and the 38 tiles cover the [32, 19456] array: after the region the array is that function.
-/
import proofs.«133748_j39333310496946_1_alg».proof.Proof.Gen.KernelIdeal.Frame
import proofs.«133748_j39333310496946_1_alg».proof.Proof.TileValue
import Idealize.ShloMosaic.Lib.Pipeline.Value

set_option maxRecDepth 16384

noncomputable section

open scoped BigOperators

namespace Cert.KernelIdeal.Padded

open Cert.KernelIdeal Cert.KernelIdeal.Gen Cert.KernelIdeal.Tile Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ)

/-- The padded result at batch entry `b` and padded voxel `v`. -/
def padAt (X : S32x180x768.Idx → EReal) (Wp : S19456x768.Idx → EReal) (Bp : S1x19456.Idx → EReal)
    (Pp : S1x19456.Idx → BitVec 32) (b : Fin 32) (v : Fin 19456) : EReal :=
  (∑ q : Fin 180, (∑ h : Fin 768, X (ix3 b q h) * Wp (ix2 v h)) * Cert.LibOneHot.weight (Pp (ix2 (0 : Fin 1) v)) q)
    + Bp (ix2 (0 : Fin 1) v)

/-- The padded result as a function of the padded index. -/
def padFn (X : S32x180x768.Idx → EReal) (Wp : S19456x768.Idx → EReal) (Bp : S1x19456.Idx → EReal)
    (Pp : S1x19456.Idx → BitVec 32) : S32x19456.Idx → EReal := fun i => padAt X Wp Bp Pp (i 0) (i 1)

/-- The printed index maps, decided over the 38 grid points: the activations' block never moves, the weights', bias' and
    ids' blocks move with the output's column block, and that block index stays below 38. -/
theorem idx_facts : ∀ t : Fin cfg0.N, win0_0.index t (0 : Fin 3) = 0 ∧ win0_0.index t (1 : Fin 3) = 0
    ∧ win0_0.index t (2 : Fin 3) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = 0 ∧ win0_4.index t (1 : Fin 2) ≤ 37 :=
  (by decide +kernel : ∀ t : Fin grid0.N, _)

/-- Every column block is some point's. -/
theorem idx_onto : ∀ q1 : Fin 38, ∃ t : Fin cfg0.N, win0_4.index t = ![0, q1.val] :=
  (by decide +kernel : ∀ q1 : Fin 38, ∃ t : Fin grid0.N, win0_4.index t = ![0, q1.val])

/-- WHAT POINT `t` WRITES BACK is block `t` of the padded function of the arrays the region finds. -/
theorem flushed_eq (c : Dev nD) (t : Fin cfg0.N) :
    (dats m 0 c).flushed 4 t = ((cfg0.win 4).blk t).view.read (Elt Ideal)
      (padFn (V m c main_v0) (V m c main_v2) (V m c main_v4) (V m c main_v6)) := by
  show (cfg0.win 4).cut (grid0.coords t) ((dats m 0 c).after 4 t) = _
  rw [after0_4, Tile.out_eq]
  obtain ⟨a00, a01, a02, a10, a11, a20, a21, a30, a31, a40, a41⟩ := idx_facts t
  funext y
  obtain ⟨b, j, rfl⟩ : ∃ (b : Fin 32) (j : Fin 512), y = ix2 b j := ⟨y 0, y 1, eq_ix2 y⟩
  have hv : win0_4.index t (1 : Fin 2) * 512 + j.val < 19456 := by have := j.isLt; omega
  have e0 : (((cfg0.win 4).blk t).view.emb (ix2 b j)) 0 = b :=
    Fin.ext (by show win0_4.index t (0 : Fin 2) * 32 + 1 * b.val = b.val; omega)
  have e1 : (((cfg0.win 4).blk t).view.emb (ix2 b j)) 1 = (⟨win0_4.index t (1 : Fin 2) * 512 + j.val, hv⟩ : Fin 19456) :=
    Fin.ext (by show win0_4.index t (1 : Fin 2) * 512 + 1 * j.val = win0_4.index t (1 : Fin 2) * 512 + j.val; omega)
  show tileAt (iblk m c 0 t) (iblk m c 1 t) (iblk m c 2 t) (iblk m c 3 t) b j
    = padAt (V m c main_v0) (V m c main_v2) (V m c main_v4) (V m c main_v6)
        ((((cfg0.win 4).blk t).view.emb (ix2 b j)) 0) ((((cfg0.win 4).blk t).view.emb (ix2 b j)) 1)
  refine Eq.trans ?_ (congrArg₂ (padAt (V m c main_v0) (V m c main_v2) (V m c main_v4) (V m c main_v6)) e0.symm e1.symm)
  unfold tileAt padAt
  have hx : ∀ (q : Fin 180) (h : Fin 768), iblk m c 0 t (ix3 b q h) = V m c main_v0 (ix3 b q h) := fun q h => by
    show V m c main_v0 (((cfg0.win 0).blk t).view.emb (ix3 b q h)) = V m c main_v0 (ix3 b q h)
    refine congrArg (V m c main_v0) (funext fun a => Fin.ext ?_)
    match a with
    | ⟨0, _⟩ => show win0_0.index t (0 : Fin 3) * 32 + 1 * b.val = b.val; omega
    | ⟨1, _⟩ => show win0_0.index t (1 : Fin 3) * 180 + 1 * q.val = q.val; omega
    | ⟨2, _⟩ => show win0_0.index t (2 : Fin 3) * 768 + 1 * h.val = h.val; omega
  have hw : ∀ h : Fin 768, iblk m c 1 t (ix2 j h)
      = V m c main_v2 (ix2 (⟨win0_4.index t (1 : Fin 2) * 512 + j.val, hv⟩ : Fin 19456) h) := fun h => by
    show V m c main_v2 (((cfg0.win 1).blk t).view.emb (ix2 j h)) = _
    refine congrArg (V m c main_v2) (funext fun a => Fin.ext ?_)
    match a with
    | ⟨0, _⟩ => show win0_1.index t (0 : Fin 2) * 512 + 1 * j.val = win0_4.index t (1 : Fin 2) * 512 + j.val; omega
    | ⟨1, _⟩ => show win0_1.index t (1 : Fin 2) * 768 + 1 * h.val = h.val; omega
  have hb : iblk m c 2 t (ix2 (0 : Fin 1) j)
      = V m c main_v4 (ix2 (0 : Fin 1) (⟨win0_4.index t (1 : Fin 2) * 512 + j.val, hv⟩ : Fin 19456)) := by
    show V m c main_v4 (((cfg0.win 2).blk t).view.emb (ix2 (0 : Fin 1) j)) = _
    refine congrArg (V m c main_v4) (funext fun a => Fin.ext ?_)
    match a with
    | ⟨0, _⟩ => show win0_2.index t (0 : Fin 2) * 1 + 1 * 0 = 0; omega
    | ⟨1, _⟩ => show win0_2.index t (1 : Fin 2) * 512 + 1 * j.val = win0_4.index t (1 : Fin 2) * 512 + j.val; omega
  have hp : iblk m c 3 t (ix2 (0 : Fin 1) j)
      = V m c main_v6 (ix2 (0 : Fin 1) (⟨win0_4.index t (1 : Fin 2) * 512 + j.val, hv⟩ : Fin 19456)) := by
    show V m c main_v6 (((cfg0.win 3).blk t).view.emb (ix2 (0 : Fin 1) j)) = _
    refine congrArg (V m c main_v6) (funext fun a => Fin.ext ?_)
    match a with
    | ⟨0, _⟩ => show win0_3.index t (0 : Fin 2) * 1 + 1 * 0 = 0; omega
    | ⟨1, _⟩ => show win0_3.index t (1 : Fin 2) * 512 + 1 * j.val = win0_4.index t (1 : Fin 2) * 512 + j.val; omega
  refine congrArg₂ (· + ·) ?_ hb
  refine Finset.sum_congr rfl fun q _ => ?_
  refine congrArg₂ (· * ·) ?_ (congrArg (fun w => Cert.LibOneHot.weight w q) hp)
  exact Finset.sum_congr rfl fun h _ => congrArg₂ (· * ·) (hx q h) (hw h)

/-- An index of the array is in point `t`'s block iff each coordinate is in the block's range on its axis. -/
theorem mem_blk (t : Fin cfg0.N) (i : S32x19456.Idx) :
    i ∈ ((cfg0.win 4).blk t).view.set ↔ ∀ a : Fin 2, win0_4.index t a * S32x512.size a ≤ (i a).val
      ∧ (i a).val < win0_4.index t a * S32x512.size a + S32x512.size a := by
  show i ∈ ((View.whole main_v7).slice (win0_4.rect t)).set ↔ _
  rw [View.set_slice_whole, Rect.mem_set_unit]
  exact Iff.rfl

/-- The tiles cover the array: column v is in the tile of point v / 512. -/
theorem cover (i : S32x19456.Idx) :
    ∃ t : Fin cfg0.N, (cfg0.win 4).flush t = true ∧ i ∈ ((cfg0.win 4).blk t).view.set := by
  have hi0 : (i 0).val < 32 := (i 0).isLt
  have hi1 : (i 1).val < 19456 := (i 1).isLt
  obtain ⟨t, ht⟩ := idx_onto ⟨(i 1).val / 512, by omega⟩
  have q0 : win0_4.index t (0 : Fin 2) = 0 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 512 ≤ (i 1).val ∧ (i 1).val < win0_4.index t (1 : Fin 2) * 512 + 512; omega

/-- THE ARRAY after the region is the padded function of the arrays the region finds. -/
theorem final (c : Dev nD) : (dats m 0 c).arrAt 4 cfg0.N
    = padFn (V m c main_v0) (V m c main_v2) (V m c main_v4) (V m c main_v6) :=
  (dats m 0 c).arrAt_eq_of_cover 4 _ (fun t _ => flushed_eq m c t) cover

end Cert.KernelIdeal.Padded

end
-- ==== Proof.KernelRun.lean ====
/-
  The kernel's run, with its result named.

  After the region the host keeps the first 19004 columns of the [32, 19456] array the region wrote. The run therefore
  ends with the result buffer at that cut of the padded function of the arrays the region finds, and the four argument
  arrays as they were.
-/
import proofs.«133748_j39333310496946_1_alg».proof.Proof.Gen.KernelIdeal.Frame
import proofs.«133748_j39333310496946_1_alg».proof.Proof.PaddedResult
import Idealize.ShloMosaic.Lib.StableHlo.Run
import Idealize.ShloMosaic.Lib.Pipeline.FrameSuffix

noncomputable section

namespace Cert.KernelIdeal.Run

open Cert.KernelIdeal Cert.KernelIdeal.Gen Cert.KernelIdeal.Padded Idealize.ShloMosaic Idealize.ShloMosaic.TcCoe
open Idealize.SL.Sem Idealize.ShloMosaic.StableHlo

variable (m : (ℓ : Loc nD τ sig) → Buf (Elt Ideal) ℓ) (ρ : Dev nD → PrngReg)

/-- The result buffer after the lines that follow the region: the cut of the region's array. -/
theorem result_eq (c : Dev nD) :
    Pipeline.afterTail₀ cfgs (dats m) 0 (V0 m) [hostOps1] c main_v8
      = extractStridedSlice S32x19004 ![0, 0]
          (padFn (V m c main_v0) (V m c main_v2) (V m c main_v4) (V m c main_v6)) slices_S32x19456_S32x19004_0_0 := by
  unfold Pipeline.afterTail₀
  show StableHlo.after hostOps1 _ (Proc.devRef .tc main_v8) = _
  after_results
  exact congrArg (fun A => extractStridedSlice S32x19004 ![0, 0] A slices_S32x19456_S32x19004_0_0)
    ((Pipeline.withArrays_arr spec0 launch0.win.arr_inj c (V0 m c) (fun w => (dats m 0 c).arrAt w cfg0.N) 4).trans (Padded.final m c))

/-- THE KERNEL'S RUN: every weakly fair execution terminates with the result at the cut of the padded function and the
    arguments unchanged. -/
theorem run : θ_run defs (onTc (τ := τ) (main (F := Ideal))) ⟨m, fun _ => 0, ρ⟩ fun r => ∀ c : Dev nD,
      r.2.mem ((c.tc : Thread nD τ).loc main_v8)
        = extractStridedSlice S32x19004 ![0, 0]
            (padFn (V m c main_v0) (V m c main_v2) (V m c main_v4) (V m c main_v6)) slices_S32x19456_S32x19004_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.HostArrays.lean ====
/-
  The arrays the region finds, read at an index.

  Before the region the host narrows the activations (the identity on exact values), pads the weights with 452 zero rows
  and narrows them, pads the bias and the ids with 452 zeros and views each as one row of 19456. At every voxel below
  19004 — the only ones the result keeps — the padded arrays hold the arguments' entries:

      X (b, q, h) = x (b, q, h),   Wp (v, h) = W (v, h),   Bp (0, v) = bias v,   Pp (0, v) = id v     (v < 19004).
-/
import proofs.«133748_j39333310496946_1_alg».proof.Proof.Gen.KernelIdeal.Frame
import Idealize.ShloMosaic.Lib.StableHlo.Run
import Idealize.ShloMosaic.Lib.KernelVsHost
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The narrowed activations, as a term of the argument. -/
theorem acts_eq (c : Dev nD) : @Eq (S32x180x768.Idx → EReal) (V m c main_v0)
    (truncf (F := Ideal) (s := S32x180x768) (φ := .f32) .bf16 (m ((c : Thread nD τ).loc main_arg0)) bitsLt_bf16_f32) := by
  dsimp only [V, V0]
  simp only [hostOps0, hostOps0_1, hostOps0_2, hostOps0_3, hostOps0_4, hostOps0_5, hostOps0_6, List.flatten_cons, List.flatten_nil,
    List.append_nil, List.cons_append, List.nil_append]
  after_results <;> rfl

/-- The padded, narrowed weights, as a term of the argument. -/
theorem weights_eq (c : Dev nD) : (V m c main_v2 : S19456x768.Idx → EReal)
    = truncf .bf16 (pad S19456x768 ![0, 0] ![452, 0] ![0, 0] (m ((c : Thread nD τ).loc main_arg1) : FVec Ideal S19004x768 .f32)
        (sitofp (F := Ideal) .f32 (constantI S_ 32 0#32)) pads_S19004x768_S19456x768_04520_000 h_S_ : FVec Ideal S19456x768 .f32)
        bitsLt_bf16_f32 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The padded bias viewed as one row, as a term of the argument. -/
theorem bias_eq (c : Dev nD) : (V m c main_v4 : S1x19456.Idx → EReal)
    = shapeCast S1x19456 (pad S19456 ![0] ![452] ![0] (m ((c : Thread nD τ).loc main_arg2) : FVec Ideal S19004 .f32)
        (sitofp (F := Ideal) .f32 (constantI S_ 32 0#32)) pads_S19004_S19456_04520 h_S_) shapeCasts_S19456_S1x19456 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The padded ids viewed as one row, as a term of the argument. -/
theorem ids_eq (c : Dev nD) : (V m c main_v6 : S1x19456.Idx → BitVec 32)
    = shapeCast S1x19456 (pad S19456 ![0] ![452] ![0] (m ((c : Thread nD τ).loc main_arg3) : IVec S19004 32)
        (id (constantI S_ 32 0#32)) pads_S19004_S19456_04520 h_S_) shapeCasts_S19456_S1x19456 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The activations the region finds are the argument's. -/
theorem acts_apply (c : Dev nD) (i : S32x180x768.Idx) :
    (V m c main_v0 : S32x180x768.Idx → EReal) i = (m ((c : Thread nD τ).loc main_arg0) : S32x180x768.Idx → EReal) i :=
  congrFun (acts_eq m c) i

/-- A row of the padded weights below 19004 is the argument's row. -/
theorem weights_apply (c : Dev nD) (v : Fin 19456) (hv : v.val < 19004) (h : Fin 768) :
    (V m c main_v2 : S19456x768.Idx → EReal) (ix2 v h)
      = (m ((c : Thread nD τ).loc main_arg1) : S19004x768.Idx → EReal) (ix2 (⟨v.val, hv⟩ : Fin 19004) h) := by
  refine (congrFun (weights_eq m c) (ix2 v h)).trans ?_
  refine (truncf_apply (φ := .f32) (ψ := .bf16) _ bitsLt_bf16_f32 _).trans ?_
  refine pad_apply_of_inside _ _ _ _ _ _ _ (ix2 v h) (ix2 (⟨v.val, hv⟩ : Fin 19004) h) fun a => ?_
  match a with
  | ⟨0, _⟩ => show v.val = 0 + v.val * (0 + 1); omega
  | ⟨1, _⟩ => show h.val = 0 + h.val * (0 + 1); omega

/-- An entry of the padded bias below 19004 is the argument's entry. -/
theorem bias_apply (c : Dev nD) (v : Fin 19456) (hv : v.val < 19004) :
    (V m c main_v4 : S1x19456.Idx → EReal) (ix2 (0 : Fin 1) v)
      = (m ((c : Thread nD τ).loc main_arg2) : S19004.Idx → EReal) (ix1 (⟨v.val, hv⟩ : Fin 19004)) := by
  refine (congrFun (bias_eq m c) (ix2 (0 : Fin 1) v)).trans ?_
  refine (shapeCast_a_1a_apply _ _ (0 : Fin 1) v).trans ?_
  refine pad_apply_of_inside _ _ _ _ _ _ _ (ix1 v) (ix1 (⟨v.val, hv⟩ : Fin 19004)) fun a => ?_
  match a with
  | ⟨0, _⟩ => show v.val = 0 + v.val * (0 + 1); omega

/-- An entry of the padded ids below 19004 is the argument's entry. -/
theorem ids_apply (c : Dev nD) (v : Fin 19456) (hv : v.val < 19004) :
    (V m c main_v6 : S1x19456.Idx → BitVec 32) (ix2 (0 : Fin 1) v)
      = (m ((c : Thread nD τ).loc main_arg3) : S19004.Idx → BitVec 32) (ix1 (⟨v.val, hv⟩ : Fin 19004)) := by
  refine (congrFun (ids_eq m c) (ix2 (0 : Fin 1) v)).trans ?_
  refine (shapeCast_a_1a_apply _ _ (0 : Fin 1) v).trans ?_
  refine pad_apply_of_inside _ _ _ _ _ _ _ (ix1 v) (ix1 (⟨v.val, hv⟩ : Fin 19004)) fun a => ?_
  match a with
  | ⟨0, _⟩ => show v.val = 0 + v.val * (0 + 1); omega

end Cert.KernelIdeal.Host

end
-- ==== Proof.RefValue.lean ====
/-
  The reference's result, read at (b, v).

  The reference contracts the activations with the weights over the hidden axis, adds the bias, swaps the query and voxel
  axes, multiplies by the one-hot rows of the parcel ids and sums over the 180 queries from the zero word:

      result (b, v) = 0 + Σ_q ((Σ_h x (b, q, h) · W (v, h)) + bias v) · weight (id v) q.

  Each stage is read at an index by its generated lemma; the composed index maps are the coordinates spelt out.
-/
import proofs.«133748_j39333310496946_1_alg».proof.Proof.Gen.ReferenceIdeal.Read
import proofs.«133748_j39333310496946_1_alg».proof.Proof.LibOneHot
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result at batch entry `b` and voxel `v`. -/
def refAt (x : S32x180x768.Idx → EReal) (W : S19004x768.Idx → EReal) (bias : S19004.Idx → EReal)
    (pid : S19004.Idx → BitVec 32) (b : Fin 32) (v : Fin 19004) : EReal :=
  Ideal.ofBits .f32 0x00000000#32
    + ∑ q : Fin 180, ((∑ h : Fin 768, x (ix3 b q h) * W (ix2 v h)) + bias (ix1 v)) * Cert.LibOneHot.weight (pid (ix1 v)) q

/-- One term of the sum over the queries. -/
theorem term_apply (x0 : (⟨S32x180x768, .f32⟩ : BufTy).Contents (Elt Ideal)) (x1 : (⟨S19004x768, .f32⟩ : BufTy).Contents (Elt Ideal))
    (x2 : (⟨S19004, .f32⟩ : BufTy).Contents (Elt Ideal)) (x3 : (⟨S19004, .i32⟩ : BufTy).Contents (Elt Ideal))
    (b : Fin 32) (v : Fin 19004) (q : Fin 180) :
    val_main_v8 (F := Ideal) x0 x1 x2 x3 (idx_main_v9 (ix2 b v) q)
      = ((∑ h : Fin 768, x0 (ix3 b q h) * x1 (ix2 v h)) + x2 (ix1 v)) * Cert.LibOneHot.weight (x3 (ix1 v)) q := by
  rw [val_main_v8_apply, val_main_v4_apply, val_main_v3_apply, val_main_v0_apply, val_main_v2_apply, val_main_v1_apply,
    val_main_v7_apply, val_main_v6_apply, val_main_v5_apply, val_main_call0_v4_apply, val_main_call0_v2_apply,
    val_main_call0_v0_apply, val_main_call0_v3_apply, val_main_call0_v1_apply]
  have il : ∀ h : Fin 768, lidx_main_v0 (idx_main_v4 (idx_main_v9 (ix2 b v) q)) h = ix3 b q h := fun h =>
    funext fun a => Fin.ext (by match a with | ⟨0, _⟩ => rfl | ⟨1, _⟩ => rfl | ⟨2, _⟩ => rfl)
  have ir : ∀ h : Fin 768, ridx_main_v0 (idx_main_v4 (idx_main_v9 (ix2 b v) q)) h = ix2 v h := fun h =>
    funext fun a => Fin.ext (by match a with | ⟨0, _⟩ => rfl | ⟨1, _⟩ => rfl)
  have ib : idx_main_v1 (idx_main_v2 (idx_main_v4 (idx_main_v9 (ix2 b v) q))) = ix1 v :=
    funext fun a => Fin.ext (by match a with | ⟨0, _⟩ => rfl)
  have ip : idx_main_call0_v0 (idx_main_call0_v2 (idx_main_v6 (idx_main_v7 (idx_main_v9 (ix2 b v) q)))) = ix1 v :=
    funext fun a => Fin.ext (by match a with | ⟨0, _⟩ => rfl)
  rw [ib, ip]
  refine congrArg₂ (· * ·) (congrArg₂ (· + ·) (Finset.sum_congr rfl fun h _ => ?_) rfl) ?_
  · rw [il, ir]
  · exact Cert.LibOneHot.uitofp_eq (x3 (ix1 v)) q

/-- THE REFERENCE at (b, v). -/
theorem ref_apply (x0 : (⟨S32x180x768, .f32⟩ : BufTy).Contents (Elt Ideal)) (x1 : (⟨S19004x768, .f32⟩ : BufTy).Contents (Elt Ideal))
    (x2 : (⟨S19004, .f32⟩ : BufTy).Contents (Elt Ideal)) (x3 : (⟨S19004, .i32⟩ : BufTy).Contents (Elt Ideal))
    (b : Fin 32) (v : Fin 19004) :
    val_main_v9 (F := Ideal) x0 x1 x2 x3 (ix2 b v) = refAt x0 x1 x2 x3 b v := by
  rw [val_main_v9_apply]
  unfold refAt
  refine congrArg₂ (· + ·) rfl (Finset.sum_congr rfl fun q _ => ?_)
  exact term_apply x0 x1 x2 x3 b v q

end Cert.ReferenceIdeal.RefValue

end
-- ==== Proof.IdRange.lean ====
/-
  What the precondition says about the parcel ids.

  The precondition is a conjunction, bit by bit, of five "all entries satisfy …" tests; its last two say that every parcel
  id is at least 0 and less than 180 as a signed integer. A conjunction that is 1 has both conjuncts 1, and an
  and-reduction that is 1 had a 1 at every entry, so the precondition gives, for every voxel, the two comparison bits — and
  with them a query whose word the id is.
-/
import proofs.«133748_j39333310496946_1_alg».proof.Pre_finite_inputs
import proofs.«133748_j39333310496946_1_alg».proof.Proof.Gen.Pre_finite_inputs
import proofs.«133748_j39333310496946_1_alg».proof.Proof.LibOneHot
import Idealize.ShloMosaic.Lib.ReduceAll
import Idealize.ShloMosaic.Lib.Affine
import Idealize.ShloMosaic.Lib.ValueIdx

noncomputable section

namespace Cert.IdRange

open Idealize.ShloMosaic Idealize.ShloMosaic.ValueIdx Cert.Pre_finite_inputs

instance : Subsingleton S_.Idx := ⟨fun a b => funext fun d => d.elim0⟩

/-- Under the precondition every parcel id is the word of one of the 180 queries. -/
theorem exists_query {F : FTy → Type} [FloatOps F] (a0 : FVec F S32x180x768 .f32) (a1 : FVec F S19004x768 .f32)
    (a2 : FVec F S19004 .f32) (a3 : IVec S19004 32)
    (h : Cert.Pre_finite_inputs.fn (F := F) a0 a1 a2 a3 = fun _ => 1#1) (v : S19004.Idx) :
    ∃ p : Fin 180, a3 v = BitVec.ofNat 32 p.val := by
  have h0 := congrFun h ix0
  dsimp only [Cert.Pre_finite_inputs.fn, Cert.Pre_finite_inputs.fn_part1] at h0
  obtain ⟨h1, hlt⟩ := IntOp.andi_eq_one.1 h0
  obtain ⟨_, hge⟩ := IntOp.andi_eq_one.1 h1
  have ge := Host.reduce_andi_all _ _ _ _ _ hge v
  have lt := Host.reduce_andi_all _ _ _ _ _ hlt v
  exact Cert.LibOneHot.exists_class_of_range (n := 180) (by norm_num) (a3 v) ge lt

end Cert.IdRange

end
-- ==== Proof.Bridge.lean ====
/-
  The two results are one function.

  At batch entry b and voxel v < 19004 the kernel's result is the padded function at column v, where the padded weights,
  bias and ids are the arguments' entries; so it is

      (Σ_q (Σ_h x (b, q, h) · W (v, h)) · weight (id v) q) + bias v,

  and the reference's is 0 + Σ_q ((Σ_h x (b, q, h) · W (v, h)) + bias v) · weight (id v) q. When the id of v is the word
  of a query p, both keep exactly the term at q = p: each is (Σ_h x (b, p, h) · W (v, h)) + bias v.
-/
import proofs.«133748_j39333310496946_1_alg».proof.Proof.PaddedResult
import proofs.«133748_j39333310496946_1_alg».proof.Proof.RefValue
import proofs.«133748_j39333310496946_1_alg».proof.Proof.LibOneHot
import Idealize.ShloMosaic.Lib.ValueLayout

noncomputable section

open scoped BigOperators

namespace Cert.Bridge

open Idealize.ShloMosaic Idealize.ShloMosaic.ValueIdx Cert.KernelIdeal.Padded Cert.ReferenceIdeal.RefValue

/-- The first 19004 columns of the padded function of arrays that hold the arguments' entries below 19004 are the
    reference's result, when every id is the word of a query. -/
theorem cut_eq_ref (x0 : Cert.ReferenceIdeal.S32x180x768.Idx → EReal) (x1 : Cert.ReferenceIdeal.S19004x768.Idx → EReal)
    (x2 : Cert.ReferenceIdeal.S19004.Idx → EReal) (x3 : Cert.ReferenceIdeal.S19004.Idx → BitVec 32)
    (X : Cert.KernelIdeal.S32x180x768.Idx → EReal) (Wp : Cert.KernelIdeal.S19456x768.Idx → EReal)
    (Bp : Cert.KernelIdeal.S1x19456.Idx → EReal) (Pp : Cert.KernelIdeal.S1x19456.Idx → BitVec 32)
    (hX : ∀ i, X i = x0 i)
    (hW : ∀ (v : Fin 19456) (hv : v.val < 19004) (h : Fin 768), Wp (ix2 v h) = x1 (ix2 (⟨v.val, hv⟩ : Fin 19004) h))
    (hB : ∀ (v : Fin 19456) (hv : v.val < 19004), Bp (ix2 (0 : Fin 1) v) = x2 (ix1 (⟨v.val, hv⟩ : Fin 19004)))
    (hP : ∀ (v : Fin 19456) (hv : v.val < 19004), Pp (ix2 (0 : Fin 1) v) = x3 (ix1 (⟨v.val, hv⟩ : Fin 19004)))
    (hrange : ∀ v : Cert.ReferenceIdeal.S19004.Idx, ∃ p : Fin 180, x3 v = BitVec.ofNat 32 p.val) :
    extractStridedSlice Cert.KernelIdeal.S32x19004 ![0, 0] (padFn X Wp Bp Pp) Cert.KernelIdeal.Facts₀.slices_S32x19456_S32x19004_0_0
      = Cert.ReferenceIdeal.Read.val_main_v9 (F := Ideal) x0 x1 x2 x3 := by
  funext i
  obtain ⟨b, v, rfl⟩ : ∃ (b : Fin 32) (v : Fin 19004), i = ix2 b v := ⟨i 0, i 1, eq_ix2 i⟩
  have hk : v.val < 19456 := by have := v.isLt; omega
  refine (slice2_axis1_apply 0 (padFn X Wp Bp Pp) _ b v (⟨v.val, hk⟩ : Fin 19456) (by show v.val = 0 + v.val; omega)).trans ?_
  refine Eq.trans ?_ (ref_apply x0 x1 x2 x3 b v).symm
  show padAt X Wp Bp Pp b (⟨v.val, hk⟩ : Fin 19456) = refAt x0 x1 x2 x3 b v
  have e1 : padAt X Wp Bp Pp b (⟨v.val, hk⟩ : Fin 19456)
      = (∑ q : Fin 180, (∑ h : Fin 768, x0 (ix3 b q h) * x1 (ix2 v h)) * Cert.LibOneHot.weight (x3 (ix1 v)) q) + x2 (ix1 v) := by
    unfold padAt
    exact congrArg₂ (· + ·) (Finset.sum_congr rfl fun q _ => congrArg₂ (· * ·)
      (Finset.sum_congr rfl fun h _ => congrArg₂ (· * ·) (hX _) (hW ⟨v.val, hk⟩ v.isLt h))
      (congrArg (fun w => Cert.LibOneHot.weight w q) (hP ⟨v.val, hk⟩ v.isLt))) (hB ⟨v.val, hk⟩ v.isLt)
  rw [e1]
  unfold refAt
  obtain ⟨p, hp⟩ := hrange (ix1 v)
  rw [hp]
  exact Cert.LibOneHot.bias_after_eq_bias_inside (by norm_num) p (fun q => ∑ h : Fin 768, x0 (ix3 b q h) * x1 (ix2 v h)) (x2 (ix1 v))

end Cert.Bridge

end
-- ==== Proof.lean ====
/- The proof of `Cert.Claim`.

   The kernel computes, tile by tile over the voxels, out (b, v) = (Σ_q (Σ_h x (b, q, h) · W (v, h)) · [q = id v]) + bias v
   on arrays padded with zeros from 19004 to 19456 voxels, and keeps the first 19004 columns. The reference computes
   Σ_q ((Σ_h x (b, q, h) · W (v, h)) + bias v) · [q = id v]. Under the precondition every id is one of the 180 queries, so
   exactly one weight is 1 and the others are 0: both are (Σ_h x (b, id v, h) · W (v, h)) + bias v on the extended reals
   (a product with the zero weight is zero at every extended real, so no finiteness enters).

   The three frames are the generated ones (the reference's: its generated run with the result dropped); no operation was
   rewritten by the idealization, so `preserves` is `True`; the equality of results joins the kernel's run (the region's
   array read block by block, then cut), the reference's run (read stage by stage) and the law above. -/
import proofs.«133748_j39333310496946_1_alg».proof.Defs
import proofs.«133748_j39333310496946_1_alg».proof.Proof.Gen.Kernel
import proofs.«133748_j39333310496946_1_alg».proof.Proof.Gen.Kernel.Skeleton
import proofs.«133748_j39333310496946_1_alg».proof.Proof.Gen.Kernel.Launch
import proofs.«133748_j39333310496946_1_alg».proof.Proof.Gen.Kernel.Points
import proofs.«133748_j39333310496946_1_alg».proof.Proof.Gen.Kernel.Frame
import proofs.«133748_j39333310496946_1_alg».proof.Proof.Gen.KernelIdeal
import proofs.«133748_j39333310496946_1_alg».proof.Proof.Gen.KernelIdeal.Skeleton
import proofs.«133748_j39333310496946_1_alg».proof.Proof.Gen.KernelIdeal.Launch
import proofs.«133748_j39333310496946_1_alg».proof.Proof.Gen.KernelIdeal.Points
import proofs.«133748_j39333310496946_1_alg».proof.Proof.Gen.KernelIdeal.Frame
import proofs.«133748_j39333310496946_1_alg».proof.Proof.Gen.ReferenceIdeal
import proofs.«133748_j39333310496946_1_alg».proof.Proof.Gen.ReferenceIdeal.Run
import proofs.«133748_j39333310496946_1_alg».proof.Proof.Gen.ReferenceIdeal.Read
import proofs.«133748_j39333310496946_1_alg».proof.Proof.Gen.Pre_finite_inputs
import proofs.«133748_j39333310496946_1_alg».proof.Proof.KernelRun
import proofs.«133748_j39333310496946_1_alg».proof.Proof.HostArrays
import proofs.«133748_j39333310496946_1_alg».proof.Proof.RefValue
import proofs.«133748_j39333310496946_1_alg».proof.Proof.IdRange
import proofs.«133748_j39333310496946_1_alg».proof.Proof.Bridge
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the kernel's is the cut of the
    padded function of the arrays its host prefix leaves, the reference's its stages' composition, and under the
    precondition's range of the ids the two are one function of the arguments. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _ _ _).trans ?_
  rw [(hagree c).1, (hagree c).2.1, (hagree c).2.2.1, (hagree c).2.2.2]
  exact (Cert.Bridge.cut_eq_ref _ _ _ _ _ _ _ _ (Cert.KernelIdeal.Host.acts_apply m c)
    (Cert.KernelIdeal.Host.weights_apply m c) (Cert.KernelIdeal.Host.bias_apply m c) (Cert.KernelIdeal.Host.ids_apply m c)
    (Cert.IdRange.exists_query _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
